-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1 : Shape := ⟨1, ![1]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S1 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S1 32 := broadcastInDim S1 ![] bcast_S_S1 main_c_0
  let main_v5 : IVec S1 1 := cmpi .sge main_arg0 main_v4
  let main_c_1 : IVec S_ 32 := constantI S_ 32 99999#32
  let main_v6 : IVec S1 32 := broadcastInDim S1 ![] bcast_S_S1 main_c_1
  let main_v7 : IVec S1 1 := cmpi .sle main_arg0 main_v6
  let main_v8 : IVec S1 1 := andi main_v5 main_v7
  let main_c_2 : IVec S_ 1 := constantI S_ 1 1#1
  let main_v9 : IVec S_ 1 := (fun x v => Host.reduce IntOp.andi x v reducesTo_S1_S_d0 h_S_) main_v8 main_c_2
  let main_v10 : IVec S_ 1 := andi main_v3 main_v9
  main_v10
-- ==== Kernel.lean ====
abbrev S1 : Shape := ⟨1, ![1]⟩
abbrev S100000x128 : Shape := ⟨2, ![100000, 128]⟩
abbrev S1x128 : Shape := ⟨2, ![1, 128]⟩
abbrev S_ : Shape := ⟨0, ![]⟩
abbrev S64x2 : Shape := ⟨2, ![64, 2]⟩

abbrev nBuf : Table → Nat
  | .hbm => 4
  | .local .scScalar .smem => 1
  | _ => 0

abbrev bufTy : (tb : Table) → Fin (nBuf tb) → BufTy
  | .hbm, ⟨0, _⟩ => ⟨S1, .i32⟩
  | .hbm, ⟨1, _⟩ => ⟨S100000x128, .f32⟩
  | .hbm, ⟨2, _⟩ => ⟨S1x128, .f32⟩
  | .hbm, ⟨3, _⟩ => ⟨S64x2, .f32⟩
  | .local .scScalar .smem, ⟨0, _⟩ => ⟨S1, .i32⟩
  | _, _ => ⟨S1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x128.size a ≤ S100000x128.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x128.size a ≤ S100000x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  inb_S1_S1_0 : ∀ a, (![0] : Fin 1 → Nat) a + S1.size a ≤ S1.size a
  numel1_S1 : S1.numel = 1
  shapeCasts_S1x128_S64x2 : S1x128.ShapeCasts S64x2
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S1 : Shape := ⟨1, ![1]⟩
abbrev S100000x128 : Shape := ⟨2, ![100000, 128]⟩
abbrev S_ : Shape := ⟨0, ![]⟩
abbrev S1x1 : Shape := ⟨2, ![1, 1]⟩
abbrev S1x128 : Shape := ⟨2, ![1, 128]⟩
abbrev S64x2 : Shape := ⟨2, ![64, 2]⟩

abbrev nBuf : Space → Nat
  | .hbm => 25
  | .vmem => 0
  | .smem => 0
  | _ => 0

abbrev bufTy : (tb : Table) → Fin (tcTables nBuf tb) → BufTy
  | .hbm, ⟨0, _⟩ => ⟨S1, .i32⟩
  | .hbm, ⟨1, _⟩ => ⟨S100000x128, .f32⟩
  | .hbm, ⟨2, _⟩ => ⟨S_, .i32⟩
  | .hbm, ⟨3, _⟩ => ⟨S1, .i32⟩
  | .hbm, ⟨4, _⟩ => ⟨S1, .i1⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1, .i32⟩
  | .hbm, ⟨9, _⟩ => ⟨S1x1, .i32⟩
  | .hbm, ⟨10, _⟩ => ⟨S1, .i32⟩
  | .hbm, ⟨11, _⟩ => ⟨S_, .i32⟩
  | .hbm, ⟨12, _⟩ => ⟨S1x1, .i32⟩
  | .hbm, ⟨13, _⟩ => ⟨S1x1, .i1⟩
  | .hbm, ⟨14, _⟩ => ⟨S1x1, .i32⟩
  | .hbm, ⟨15, _⟩ => ⟨S1x1, .i1⟩
  | .hbm, ⟨16, _⟩ => ⟨S1x1, .i1⟩
  | .hbm, ⟨17, _⟩ => ⟨S_, .i1⟩
  | .hbm, ⟨18, _⟩ => ⟨S1, .i1⟩
  | .hbm, ⟨19, _⟩ => ⟨S1x128, .f32⟩
  | .hbm, ⟨20, _⟩ => ⟨S1x128, .i1⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S64x2, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c_3 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x128_0 : S1.BroadcastsInDim S1x128 (![0] : Fin 1 → Fin S1x128.rank)
  bcast_S_S1x128 : S_.BroadcastsInDim S1x128 (![] : Fin 0 → Fin S1x128.rank)
  shapeCasts_S1x128_S64x2 : S1x128.ShapeCasts S64x2
  gather_S100000x128_S1x1_S1x128_1_0_n_n_0_1_1128_wf : GatherDims.WF S100000x128 S1x1 S1x128 [1] [0] [] [0] [] 1 ![1, 128]

variable [Facts₀]

def gather_S100000x128_S1x1_S1x128_1_0_n_n_0_1_1128 : GatherDims S100000x128 S1x1 S1x128 where
  offsetDims := [1]
  collapsedSliceDims := [0]
  operandBatchingDims := []
  startIndicesBatchingDims := []
  startIndexMap := [0]
  indexVectorDim := 1
  sliceSizes := ![1, 128]
  wf := gather_S100000x128_S1x1_S1x128_1_0_n_n_0_1_1128_wf

class Facts : Prop extends Facts₀ where

variable [Facts]
-- ==== Proof.Domain.lean ====
/-
  What the input domain says of the index: the precondition is the conjunction of "every table entry is finite" and
  "the index lies in [0, 99999]" (signed); its second half, read back at the index array's one entry, bounds the row
  number, so the row read is a row of the table and the signed and unsigned readings of the index agree.
-/
import proofs.«204644_g18691697672199_cont_8to1_119_7_alg».proof.Pre_input_domain
import proofs.«204644_g18691697672199_cont_8to1_119_7_alg».proof.Proof.Gen.Pre_input_domain
import Idealize.ShloMosaic.Lib.ReduceAll
import Idealize.ShloMosaic.Lib.ValueIdx

noncomputable section

namespace Cert.Pre_input_domain.Range

open Idealize.ShloMosaic Cert.Pre_input_domain Cert.Pre_input_domain.Facts

variable {F : FTy → Type} [FloatOps F]

instance : Subsingleton S_.Idx := ⟨fun a b => funext fun d => d.elim0⟩

/-- A 32-bit word in [0, 99999] read signed is below 100000 read unsigned, and the two readings agree. -/
theorem word_range (w : BitVec 32) (h0 : (0#32 : BitVec 32).toInt ≤ w.toInt) (h1 : w.toInt ≤ (99999#32 : BitVec 32).toInt) :
    w.toNat < 100000 ∧ w.toInt.toNat = w.toNat := by
  have e0 : (0#32 : BitVec 32).toInt = 0 := by decide
  have e1 : (99999#32 : BitVec 32).toInt = 99999 := by decide
  rw [e0] at h0; rw [e1] at h1
  have hlt := w.isLt
  rw [BitVec.toInt_eq_toNat_cond] at h0 h1 ⊢
  split at h0 <;> constructor <;> omega

/-- Under the precondition every entry of the index array passes the two comparisons "at least 0" and "at most 99999". -/
theorem index_bits (x : IVec S1 32) (e : FVec F S100000x128 .f32)
    (h : Cert.Pre_input_domain.fn (F := F) x e = fun _ => 1#1) (i : S1.Idx) :
    IntOp.cmpi .sge (x i) 0#32 = 1#1 ∧ IntOp.cmpi .sle (x i) 99999#32 = 1#1 := by
  have e0 := congrFun h ValueIdx.ix0
  dsimp only [Cert.Pre_input_domain.fn] at e0
  obtain ⟨-, h9⟩ := IntOp.andi_eq_one.1 e0
  have h8 := Host.reduce_andi_all _ _ _ _ ValueIdx.ix0 h9 i
  obtain ⟨h5, h7⟩ := IntOp.andi_eq_one.1 h8
  exact ⟨h5, h7⟩

/-- So every entry, read unsigned, is below 100000, and reads the same signed. -/
theorem index_range (x : IVec S1 32) (e : FVec F S100000x128 .f32)
    (h : Cert.Pre_input_domain.fn (F := F) x e = fun _ => 1#1) (i : S1.Idx) :
    (x i).toNat < 100000 ∧ (x i).toInt.toNat = (x i).toNat :=
  word_range (x i) (IntOp.cmpi_sge.1 (index_bits x e h i).1) (IntOp.cmpi_sle.1 (index_bits x e h i).2)

end Cert.Pre_input_domain.Range

end
-- ==== Proof.Spec.lean ====
/-
  The value both programs compute, as one function of the argument arrays: the table's row whose number is the index
  array's one entry (never past the last row), and that row of 128 numbers laid out again as 64 rows of 2.
-/
import Idealize.ShloMosaic.Lib.ValueIdx

noncomputable section

namespace Cert.RowSpec

open Idealize.ShloMosaic Idealize.ShloMosaic.ValueIdx

/-- Row `x[0]` of a 100000 x 128 table `e`, as a 1 x 128 array: entry (0, c) is `e` at (min x[0] 99999, c). -/
def rowOf {α : Type} (x : (⟨1, ![1]⟩ : Shape).Idx → BitVec 32) (e : (⟨2, ![100000, 128]⟩ : Shape).Idx → α) :
    (⟨2, ![1, 128]⟩ : Shape).Idx → α :=
  fun j => e (ix2 (⟨min (x (ix1 (0 : Fin 1))).toNat 99999, by omega⟩ : Fin 100000) (⟨(j 1).val, idx2_lt1 j⟩ : Fin 128))

end Cert.RowSpec

end
-- ==== Proof.KernelRun.lean ====
/-
  The run of the kernel program (the kernel program as printed, read at any float instance): the index array is copied into the sequencer's scalar memory and
  its one word read back; row number "that word" of the table is copied onto the 1 x 128 result, which the host then
  lays out as 64 x 2. Under "the index is below the table's height" every weakly fair execution of the device's threads
  terminates, with the arguments unchanged and the result equal to that row laid out as 64 x 2. Each copy is issued and
  waited for on a semaphore of its own, and nothing touches a copy's source or destination while it is pending, so no
  schedule enters: the two waits are admissible because the sequencer owes nothing at their level.
-/
import proofs.«204644_g18691697672199_cont_8to1_119_7_alg».proof.Kernel
import proofs.«204644_g18691697672199_cont_8to1_119_7_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«204644_g18691697672199_cont_8to1_119_7_alg».proof.Proof.Gen.Kernel
import proofs.«204644_g18691697672199_cont_8to1_119_7_alg».proof.Proof.Gen.Kernel.Skeleton

noncomputable section

namespace Cert.Kernel.RowCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.RowSpec

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "xW" => (Memref.whole Cert.Kernel.main_arg0_scs : Memref Cert.Kernel.sig Kind.scScalar Space.hbm Cert.Kernel.S1 EltTy.i32)
local notation "eW" => (Memref.whole Cert.Kernel.main_arg1_scs : Memref Cert.Kernel.sig Kind.scScalar Space.hbm Cert.Kernel.S100000x128 EltTy.f32)
local notation "oW" => (Memref.whole Cert.Kernel.main_v0_scs : Memref Cert.Kernel.sig Kind.scScalar Space.hbm Cert.Kernel.S1x128 EltTy.f32)
local notation "sW" => (Memref.whole Cert.Kernel.cc0_scratch0 : Memref Cert.Kernel.sig Kind.scScalar Space.smem Cert.Kernel.S1 EltTy.i32)
abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

variable [FloatOps F]

abbrev xPts (d : Dev nD) : sProp 𝕄 := xLoc d ↦{fullShare} m (xLoc d)
abbrev ePts (d : Dev nD) : sProp 𝕄 := eLoc d ↦{fullShare} m (eLoc d)
abbrev oPts (d : Dev nD) (f : Buf (Elt F) (oLoc d)) : sProp 𝕄 := oLoc d ↦{fullShare} f

section Body

variable (d : Dev nD)

def coordsS (c : Fin (grid0.bound 0)) : grid0.Coords := fun | 0 => c | ⟨_ + 1, h⟩ => absurd h (Nat.not_lt.2 (Nat.le_add_left _ _))

abbrev cAcell (c : Fin τ.nSC) : GSem nD τ sig := (S d c, .dma cc0_scoped0.sem)
abbrev cBcell (c : Fin τ.nSC) : GSem nD τ sig := (S d c, .dma cc0_scoped1.sem)

omit [FloatOps F] in
theorem ownSems0_S (c : Fin τ.nSC) :
    (ownSems0 (S d c) : sProp 𝕄) = iprop(semVal (cAcell d c) 0 ∗ semVal (cBcell d c) 0
      ∗ bigSep (((ownCells (S d c)).erase (cAcell d c)).erase (cBcell d c)) fun g => semVal g 0) := by
  unfold SparseCore.Cfg.ownSems0
  rw [SparseCore.bigSep_erase' ((mem_ownCells (g := cAcell d c)).mpr ⟨rfl, by
      show (SemLoc.dma cc0_scoped0.sem : SemLoc sig).isScoped .scScalar = true; decide⟩),
    SparseCore.bigSep_erase' (Finset.mem_erase.mpr ⟨by simp [cAcell, cBcell]; decide, (mem_ownCells (g := cBcell d c)).mpr ⟨rfl, by
      show (SemLoc.dma cc0_scoped1.sem : SemLoc sig).isScoped .scScalar = true; decide⟩⟩)]

omit [FloatOps F] in
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
theorem pts_x (c : Fin τ.nSC) (f : Buf (Elt F) (xLoc d)) :
    ((xW).view.loc (S d c) ↦{fullShare} f : sProp 𝕄) = xLoc d ↦{fullShare} f := by
  simp only [Memref.view_whole, View.set_whole]
omit [FloatOps F] in
theorem pts_e (c : Fin τ.nSC) (f : Buf (Elt F) (eLoc d)) :
    ((eW).view.loc (S d c) ↦{fullShare} f : sProp 𝕄) = eLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

abbrev S0 (h : 0 < grid0.bound 0) : Thread nD τ := S d ((⟨0, h⟩ : Fin (grid0.bound 0)).castLE hcore0)

/-- The one index of the index array. -/
def i0 : S1.Idx := fun a => match a with | ⟨0, _⟩ => ⟨0, Nat.one_pos⟩

omit [FloatOps F] in
theorem S1_idx (x : S1.Idx) : x = i0 := by
  funext a
  match a with
  | ⟨0, _⟩ =>
    apply Fin.ext
    have h := (x ⟨0, by decide⟩).isLt
    show (x ⟨0, _⟩).val = 0
    have hs : S1.size ⟨0, by decide⟩ = 1 := by decide
    omega

omit [FloatOps F] in
/-- The word the sequencer loads from its scalar memory, after the index array was copied there whole, is the index. -/
theorem word_eq (c : Fin τ.nSC) (g : Buf (Elt F) (xLoc d)) (fs : Buf (Elt F) ((S d c).loc cc0_scratch0)) (j : (Rect.unit (s := S1) ![0] S1.size inb_S1_S1_0).toLoadRect.shape.Idx) :
    View.readAt (Elt F) (sW).view (Rect.unit (s := S1) ![0] S1.size inb_S1_S1_0).toLoadRect
      (View.write (Elt F) (sW).view fs (ReadAs.same.apply (View.read (Elt F) (xW).view g)) Finset.univ) j = (g : S1.Idx → BitVec 32) i0 := by
  simp only [Memref.view_whole, View.write_whole_univ, View.readAt_apply, View.read_whole]
  exact congrArg (g : S1.Idx → BitVec 32) (S1_idx _)

omit [FloatOps F] in
/-- A row number below the table's height names a row: the one-row slice at it lies inside the table. -/
theorem chk_of_lt (w : BitVec 32) (hw : w.toNat < 100000) : k0_chk1 w := by
  intro a
  fin_cases a
  · show w.toNat + 1 ≤ 100000; omega
  · show 0 + 128 ≤ 128; omega

omit [FloatOps F] in
/-- What the second copy lands: the result array, overwritten whole with what the one-row slice at row `w` reads of the
    table, holds the table's row `x[0]` when `w` is that index. -/
theorem landed_eq (g : Buf (Elt F) (xLoc d)) (e : Buf (Elt F) (eLoc d)) (fo : Buf (Elt F) (oLoc d))
    (w : BitVec 32) (hw : k0_chk1 w) (hwg : w.toNat = ((g : S1.Idx → BitVec 32) i0).toNat) (hx : ((g : S1.Idx → BitVec 32) i0).toNat < 100000) :
    View.write (Elt F) (oW).view fo
      (ReadAs.same.apply (View.read (Elt F) ((eW).slice (Rect.unit (s := S100000x128) (k0_off1 w) S1x128.size (k0_off1_inb w hw)) (fun _ => rfl)).view e)) Finset.univ
    = (rowOf (g : S1.Idx → BitVec 32) (e : S100000x128.Idx → Elt F .f32) : S1x128.Idx → Elt F .f32) := by
  simp only [Memref.view_whole, View.write_whole_univ]
  funext j
  show (e : S100000x128.Idx → Elt F .f32) _ = (e : S100000x128.Idx → Elt F .f32) _
  refine congrArg (e : S100000x128.Idx → Elt F .f32) (funext fun a => Fin.ext ?_)
  have h0 : (j 0).val = 0 := by
    have h1 : (j 0).val < 1 := (j 0).isLt
    omega
  have hi : (i0 : S1.Idx) = ValueIdx.ix1 (0 : Fin 1) := by funext a; match a with | ⟨0, _⟩ => rfl
  match a with
  | ⟨0, _⟩ =>
    show w.toNat + 1 * (j 0).val = min ((g : S1.Idx → BitVec 32) (ValueIdx.ix1 (0 : Fin 1))).toNat 99999
    rw [← hi, h0, hwg]; omega
  | ⟨1, _⟩ =>
    show 0 + 1 * (j 1).val = (j 1).val
    omega

/-- The kernel on the sequencer. -/
theorem body₀ (hF : (K (F := F)).Facts) (h : 0 < grid0.bound 0) (O : CellTallies nD τ sig (HIx 1)) (W : Waits sig (HIx 1)) (hO : ∀ g, O g none = 0)
    (hx : ((m (xLoc d) : S1.Idx → BitVec 32) i0).toNat < 100000) :
    iprop(levAts (K (F := F)).L (K (F := F)).lev ∗ emp ∗ (xPts m d ∗ ePts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__gather_row (coordsS ⟨0, h⟩) xW (Memref.isWhole_whole _) eW (Memref.isWhole_whole _) oW (Memref.isWhole_whole _) sW (Memref.isWhole_whole _) cc0_scoped0 cc0_scoped1)
          fun _ => iprop((xPts m d ∗ ePts m d ∗ ∃ f, oPts d f ∗ ⌜f = (rowOf (m (xLoc d) : S1.Idx → BitVec 32) (m (eLoc d) : S100000x128.Idx → Elt F .f32) : S1x128.Idx → Elt F .f32)⌝)
            ∗ scopedBufs (S0 d h) ∗ scopedSems0 (S0 d h) ∗ ∃ W', ⌜∀ p ∈ W', p ∈ W ∨ p.2 = none⌝ ∗ owes (S0 d h) O W') := by
  simp only [cc0__gather_row_eq_skeleton]; unfold cc0__gather_row_skel
  iintro ⟨#Hlv, -, ⟨Hx, He, %fo, Ho⟩, Hsb, Hss, HO⟩
  ihave Hsb' := ((K (F := F)).scopedBufs_S_elim hF d (((⟨0, h⟩ : Fin (grid0.bound 0))).castLE hcore0)) $$ Hsb
  icases Hsb' with ⟨Hownb, Hsubb⟩
  ihave Hownb' := (Entails.of_eq (ownBufs_S (F := F) d (((⟨0, h⟩ : Fin (grid0.bound 0))).castLE hcore0))) $$ Hownb
  icases Hownb' with ⟨⟨%fs, Hs⟩, Hrestb⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hmw := ((K (F := F)).mayWaits_none (thr := S0 d h) hO) $$ Hlv
  ihave Hx' := (Entails.of_eq (pts_x (F := F) d (((⟨0, h⟩ : Fin (grid0.bound 0))).castLE hcore0) _).symm) $$ Hx
  ihave He' := (Entails.of_eq (pts_e (F := F) d (((⟨0, h⟩ : Fin (grid0.bound 0))).castLE hcore0) _).symm) $$ He
  ihave Ho' := (Entails.of_eq (pts_o (F := F) d (((⟨0, h⟩ : Fin (grid0.bound 0))).castLE hcore0) _).symm) $$ Ho
  ihave Hs' := (Entails.of_eq (pts_s (F := F) d (((⟨0, h⟩ : Fin (grid0.bound 0))).castLE hcore0) _).symm) $$ Hs
  sl_exec (disch := first | (sl_unfold_run_names; exact chk_of_lt _ (by rw [word_eq]; exact hx)) | exact chk_of_lt _ (lt_of_eq_of_lt (congrArg BitVec.toNat (word_eq d _ (m (xLoc d)) fs _)) hx))
  sl_unfold_run_names
  sl_step
  isplitl [Hx' He' Ho']
  · isplitl [Hx']; · iapply (Entails.of_eq (pts_x (F := F) d _ _)); iexact Hx'
    isplitl [He']; · iapply (Entails.of_eq (pts_e (F := F) d _ _)); iexact He'
    iexists _
    isplitl [Ho']
    · iapply (Entails.of_eq (pts_o (F := F) d _ _)); iexact Ho'
    · ipureintro
      exact landed_eq d (m (xLoc d)) (m (eLoc d)) fo _ (chk_of_lt _ (lt_of_eq_of_lt (congrArg BitVec.toNat (word_eq d _ (m (xLoc d)) fs _)) hx))
        (congrArg BitVec.toNat (word_eq d _ (m (xLoc d)) fs _)) hx
  isplitl [Hs' Hrestb Hsubb]
  · iapply ((K (F := F)).scopedBufs_S_intro hF d _)
    isplitl [Hs' Hrestb]
    · rw [ownBufs_S]
      isplitl [Hs']
      · iexists _; iapply (Entails.of_eq (pts_s (F := F) d _ _)); iexact Hs'
      · iexact Hrestb
    · iexact Hsubb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (by rw [hp]; rfl)
    rcases Finset.mem_insert.mp hp with hp | hp
    · exact .inr (by rw [hp]; rfl)
    · exact .inl hp
  · iexact HO

end Body

/-! ## The launch: what the call hands the sequencer and takes back -/

/-- The call hands the one SparseCore's sequencer the two arguments and the result array whole, and takes them back with
    the result array at the table's row. -/
def P : (K (F := F)).Pay (nD := nD) (Val := Elt F) (Name := ℕ) (U := UU) where
  st := fun _ d _ => iprop(xPts m d ∗ ePts m d ∗ ∃ f, oPts d f)
  dn := fun _ d _ => iprop(xPts m d ∗ ePts m d ∗ ∃ f, oPts d f ∗ ⌜f = (rowOf (m (xLoc d) : S1.Idx → BitVec 32) (m (eLoc d) : S100000x128.Idx → Elt F .f32) : S1x128.Idx → Elt F .f32)⌝)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem defs₀_scalar (c : Fin τ.nSC) :
    defs₀ (F := F) (.scScalar c) 0 ()
      = SparseCore.onCore hcore0 (fun c => cc0__gather_row (coordsS c) xW (Memref.isWhole_whole _) eW (Memref.isWhole_whole _) oW (Memref.isWhole_whole _) sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's obligation at the one call. -/
theorem scalarObl (hx : ∀ d, ((m (xLoc d) : S1.Idx → BitVec 32) i0).toNat < 100000) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body₀ m d facts h O W hO (hx d)).trans (wp_mono frame _ _ fun _ => obl_post)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call, then the reshape -/

abbrev x' : DevRef τ sig := Proc.devRef .tc (main_arg0 : Ref sig .tc)
abbrev e' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev opR : HloOp τ sig (Elt F) := StableHlo.reshape main_v0 main_v1 rfl shapeCasts_S1x128_S64x2

abbrev S4 : Finset (DevRef τ sig) := {x', e', o', r'}

omit [FloatOps F] in
theorem held_S4 (d : Dev nD) (W : Valuation τ sig (Elt F)) :
    (held (T d) S4 W : sProp 𝕄) = iprop((xLoc d ↦{fullShare} W x') ∗ (eLoc d ↦{fullShare} W e') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)
def V1 (d : Dev nD) (f : Buf (Elt F) (oLoc d)) : Valuation τ sig (Elt F) := Function.update (V0 m d) o' f

theorem unscoped_held (d : Dev nD) : (unscopedBufs d (fun b => m ((SparseCore.T d).loc b)) : sProp 𝕄) = held (T d) S4 (V0 m d) := by
  rw [unscopedBufs_eq, held_S4]; rfl

theorem V1_x (d : Dev nD) (f : Buf (Elt F) (oLoc d)) : V1 m d f x' = m (xLoc d) := Function.update_of_ne (show x' ≠ o' by decide) _ _
theorem V1_e (d : Dev nD) (f : Buf (Elt F) (oLoc d)) : V1 m d f e' = m (eLoc d) := Function.update_of_ne (show e' ≠ o' by decide) _ _
theorem V1_o (d : Dev nD) (f : Buf (Elt F) (oLoc d)) : V1 m d f o' = f := Function.update_self _ _ _
theorem V1_r (d : Dev nD) (f : Buf (Elt F) (oLoc d)) : V1 m d f r' = V0 m d r' := Function.update_of_ne (show r' ≠ o' by decide) _ _

/-- The result array after the reshape: the row laid out as 64 x 2. -/
def resOf (d : Dev nD) : Buf (Elt F) (rLoc d) :=
  (shapeCast S64x2 (rowOf (m (xLoc d) : S1.Idx → BitVec 32) (m (eLoc d) : S100000x128.Idx → Elt F .f32) : S1x128.Idx → Elt F .f32) shapeCasts_S1x128_S64x2 : S64x2.Idx → Elt F .f32)

theorem held_after (d : Dev nD) (f : Buf (Elt F) (oLoc d))
    (hf : f = (rowOf (m (xLoc d) : S1.Idx → BitVec 32) (m (eLoc d) : S100000x128.Idx → Elt F .f32) : S1x128.Idx → Elt F .f32)) :
    (held (T d) S4 ((opR (F := F)).result (V1 m d f)) : sProp 𝕄)
      = iprop(xPts m d ∗ ePts m d ∗ oPts d f ∗ rLoc d ↦{fullShare} resOf m d) := by
  rw [held_S4,
    (opR (F := F)).result_of_not_mem (V1 m d f) (b := x') (show x' ∉ ({r'} : Finset (DevRef τ sig)) by decide),
    (opR (F := F)).result_of_not_mem (V1 m d f) (b := e') (show e' ∉ ({r'} : Finset (DevRef τ sig)) by decide),
    (opR (F := F)).result_of_not_mem (V1 m d f) (b := o') (show o' ∉ ({r'} : Finset (DevRef τ sig)) by decide),
    V1_x, V1_e, V1_o]
  have hr : (opR (F := F)).result (V1 m d f) r' = resOf m d := by
    rw [show (opR (F := F)).result (V1 m d f) r' = _ from StableHlo.reshape_result (τ := τ) (Val := Elt F) main_v0 main_v1 rfl shapeCasts_S1x128_S64x2 ⟨by decide, rfl⟩ ⟨by decide, rfl⟩ (V1 m d f)]
    show (fun i => shapeCast S64x2 (V1 m d f o') shapeCasts_S1x128_S64x2 i) = resOf m d
    rw [V1_o, hf]; rfl
  rw [hr]

theorem st0_eq (d : Dev nD) : (bigSep Finset.univ fun c : Fin ((K (F := F)).nCore 0) => (P m).st 0 d c) = iprop(xPts m d ∗ ePts m d ∗ ∃ f, oPts d f) := by
  show (bigSep (Finset.univ : Finset (Fin 1)) fun _ => iprop(xPts m d ∗ ePts m d ∗ ∃ f, oPts d f)) = _
  rw [show (Finset.univ : Finset (Fin 1)) = {0} by decide, bigSep_singleton]
theorem dn0_eq (d : Dev nD) : (bigSep Finset.univ fun c : Fin ((K (F := F)).nCore 0) => (P m).dn 0 d c)
    = iprop(xPts m d ∗ ePts m d ∗ ∃ f, oPts d f ∗ ⌜f = (rowOf (m (xLoc d) : S1.Idx → BitVec 32) (m (eLoc d) : S100000x128.Idx → Elt F .f32) : S1x128.Idx → Elt F .f32)⌝) := by
  show (bigSep (Finset.univ : Finset (Fin 1)) fun _ => iprop(xPts m d ∗ ePts m d ∗ ∃ f, oPts d f ∗ ⌜f = (rowOf (m (xLoc d) : S1.Idx → BitVec 32) (m (eLoc d) : S100000x128.Idx → Elt F .f32) : S1x128.Idx → Elt F .f32)⌝)) = _
  rw [show (Finset.univ : Finset (Fin 1)) = {0} by decide, bigSep_singleton]

theorem hR : (opR (F := F)).bufs ⊆ S4 := show ({o', r'} : Finset (DevRef τ sig)) ⊆ S4 by decide

/-- What @main leaves the claim: the arguments at their launch contents, the result at the row laid out as 64 x 2. -/
abbrev FIN (d : Dev nD) : sProp 𝕄 := iprop(xPts m d ∗ ePts m d ∗ rLoc d ↦{fullShare} resOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S4 (F := F) d _)) $$ Hheld
  icases Hh with ⟨Hx, He, Ho, Hr⟩
  iapply ((K (F := F)).wp_run (D (F := F)) 𝒱 (EH := EH) (P := P m) κ d 0) $$ [Hst Hx He Ho Hb Hr]
  isplitr; · iexact Hctx
  isplitl [Hst]; · iexact Hst
  isplitl [Hx He Ho]
  · rw [st0_eq]
    isplitl [Hx]; · iexact Hx
    isplitl [He]; · iexact He
    iexists _; iexact Ho
  iintro ⟨Hst, Hdn⟩
  ihave Hdn' := (Entails.of_eq (dn0_eq m d)) $$ Hdn
  icases Hdn' with ⟨Hx, He, %f, Ho, %hf⟩
  iapply (wp_hlo_within 𝒱 (SparseCore.T d) none Set.univ (op := opR) (S := S4) hR (V := V1 m d f)) $$ [Hb Hx He Ho Hr]
  · isplitl [Hb]; · iexact Hb
    rw [held_S4, V1_x, V1_e, V1_o, V1_r]
    isplitl [Hx]; · iexact Hx
    isplitl [He]; · iexact He
    isplitl [Ho]; · iexact Ho
    iexact Hr
  iintro ⟨Hb, Hheld⟩
  ihave Hh := (Entails.of_eq (held_after (F := F) m d f hf)) $$ Hheld
  icases Hh with ⟨Hx, He, -, Hr⟩
  rw [wp_ret]; imodintro; imodintro
  isplitl [Hst]; · iexact Hst
  isplitl [Hx]; · iexact Hx
  isplitl [He]; · iexact He
  iexact Hr

def fq (d : Dev nD) (s' : Phys nD τ sig (Elt F)) : Prop :=
  s'.mem.mem (rLoc d) = resOf m d ∧ s'.mem.mem (xLoc d) = m (xLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hx, He, Hr⟩, HSI⟩
  ihave %hx := (SI_pointsTo_agree (st := s') (ℓ := xLoc d) (I := Finset.univ) (q := fullShare) (f := m (xLoc d))) $$ [HSI Hx]
  · isplitl [HSI] <;> iassumption
  ihave %he := (SI_pointsTo_agree (st := s') (ℓ := eLoc d) (I := Finset.univ) (q := fullShare) (f := m (eLoc d))) $$ [HSI He]
  · isplitl [HSI] <;> iassumption
  ihave %hr := (SI_pointsTo_agree (st := s') (ℓ := rLoc d) (I := Finset.univ) (q := fullShare) (f := resOf m d)) $$ [HSI Hr]
  · isplitl [HSI] <;> iassumption
  ipureintro
  exact ⟨funext fun i => hr i (Finset.mem_univ i), funext fun i => hx i (Finset.mem_univ i), funext fun i => he i (Finset.mem_univ i)⟩

/-! ## The program's run -/

def QC : PUnit × MemSt nD τ sig (Elt F) → Prop := fun r => ∀ c : Dev nD,
  r.2.mem (rLoc c) = resOf m c ∧ r.2.mem (xLoc c) = m (xLoc c) ∧ r.2.mem (eLoc c) = m (eLoc c)

/-- Under "the index names a row", every weakly fair execution of the device's threads terminates with the result at the
    row laid out as 64 x 2 and the arguments unchanged. -/
theorem run_main [∀ e, Nonempty (Elt F e)] (hx : ∀ d, ((m (xLoc d) : S1.Idx → BitVec 32) i0).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m hx)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Kernel.RowCopy

end
-- ==== Proof.KernelIdealRun.lean ====
/-
  The run of the kernel program (the idealized kernel program, read at any float instance): the index array is copied into the sequencer's scalar memory and
  its one word read back; row number "that word" of the table is copied onto the 1 x 128 result, which the host then
  lays out as 64 x 2. Under "the index is below the table's height" every weakly fair execution of the device's threads
  terminates, with the arguments unchanged and the result equal to that row laid out as 64 x 2. Each copy is issued and
  waited for on a semaphore of its own, and nothing touches a copy's source or destination while it is pending, so no
  schedule enters: the two waits are admissible because the sequencer owes nothing at their level.
-/
import proofs.«204644_g18691697672199_cont_8to1_119_7_alg».proof.KernelIdeal
import proofs.«204644_g18691697672199_cont_8to1_119_7_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«204644_g18691697672199_cont_8to1_119_7_alg».proof.Proof.Gen.KernelIdeal
import proofs.«204644_g18691697672199_cont_8to1_119_7_alg».proof.Proof.Gen.KernelIdeal.Skeleton

noncomputable section

namespace Cert.KernelIdeal.RowCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.RowSpec

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "xW" => (Memref.whole Cert.KernelIdeal.main_arg0_scs : Memref Cert.KernelIdeal.sig Kind.scScalar Space.hbm Cert.KernelIdeal.S1 EltTy.i32)
local notation "eW" => (Memref.whole Cert.KernelIdeal.main_arg1_scs : Memref Cert.KernelIdeal.sig Kind.scScalar Space.hbm Cert.KernelIdeal.S100000x128 EltTy.f32)
local notation "oW" => (Memref.whole Cert.KernelIdeal.main_v0_scs : Memref Cert.KernelIdeal.sig Kind.scScalar Space.hbm Cert.KernelIdeal.S1x128 EltTy.f32)
local notation "sW" => (Memref.whole Cert.KernelIdeal.cc0_scratch0 : Memref Cert.KernelIdeal.sig Kind.scScalar Space.smem Cert.KernelIdeal.S1 EltTy.i32)
abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

variable [FloatOps F]

abbrev xPts (d : Dev nD) : sProp 𝕄 := xLoc d ↦{fullShare} m (xLoc d)
abbrev ePts (d : Dev nD) : sProp 𝕄 := eLoc d ↦{fullShare} m (eLoc d)
abbrev oPts (d : Dev nD) (f : Buf (Elt F) (oLoc d)) : sProp 𝕄 := oLoc d ↦{fullShare} f

section Body

variable (d : Dev nD)

def coordsS (c : Fin (grid0.bound 0)) : grid0.Coords := fun | 0 => c | ⟨_ + 1, h⟩ => absurd h (Nat.not_lt.2 (Nat.le_add_left _ _))

abbrev cAcell (c : Fin τ.nSC) : GSem nD τ sig := (S d c, .dma cc0_scoped0.sem)
abbrev cBcell (c : Fin τ.nSC) : GSem nD τ sig := (S d c, .dma cc0_scoped1.sem)

omit [FloatOps F] in
theorem ownSems0_S (c : Fin τ.nSC) :
    (ownSems0 (S d c) : sProp 𝕄) = iprop(semVal (cAcell d c) 0 ∗ semVal (cBcell d c) 0
      ∗ bigSep (((ownCells (S d c)).erase (cAcell d c)).erase (cBcell d c)) fun g => semVal g 0) := by
  unfold SparseCore.Cfg.ownSems0
  rw [SparseCore.bigSep_erase' ((mem_ownCells (g := cAcell d c)).mpr ⟨rfl, by
      show (SemLoc.dma cc0_scoped0.sem : SemLoc sig).isScoped .scScalar = true; decide⟩),
    SparseCore.bigSep_erase' (Finset.mem_erase.mpr ⟨by simp [cAcell, cBcell]; decide, (mem_ownCells (g := cBcell d c)).mpr ⟨rfl, by
      show (SemLoc.dma cc0_scoped1.sem : SemLoc sig).isScoped .scScalar = true; decide⟩⟩)]

omit [FloatOps F] in
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
theorem pts_x (c : Fin τ.nSC) (f : Buf (Elt F) (xLoc d)) :
    ((xW).view.loc (S d c) ↦{fullShare} f : sProp 𝕄) = xLoc d ↦{fullShare} f := by
  simp only [Memref.view_whole, View.set_whole]
omit [FloatOps F] in
theorem pts_e (c : Fin τ.nSC) (f : Buf (Elt F) (eLoc d)) :
    ((eW).view.loc (S d c) ↦{fullShare} f : sProp 𝕄) = eLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

abbrev S0 (h : 0 < grid0.bound 0) : Thread nD τ := S d ((⟨0, h⟩ : Fin (grid0.bound 0)).castLE hcore0)

/-- The one index of the index array. -/
def i0 : S1.Idx := fun a => match a with | ⟨0, _⟩ => ⟨0, Nat.one_pos⟩

omit [FloatOps F] in
theorem S1_idx (x : S1.Idx) : x = i0 := by
  funext a
  match a with
  | ⟨0, _⟩ =>
    apply Fin.ext
    have h := (x ⟨0, by decide⟩).isLt
    show (x ⟨0, _⟩).val = 0
    have hs : S1.size ⟨0, by decide⟩ = 1 := by decide
    omega

omit [FloatOps F] in
/-- The word the sequencer loads from its scalar memory, after the index array was copied there whole, is the index. -/
theorem word_eq (c : Fin τ.nSC) (g : Buf (Elt F) (xLoc d)) (fs : Buf (Elt F) ((S d c).loc cc0_scratch0)) (j : (Rect.unit (s := S1) ![0] S1.size inb_S1_S1_0).toLoadRect.shape.Idx) :
    View.readAt (Elt F) (sW).view (Rect.unit (s := S1) ![0] S1.size inb_S1_S1_0).toLoadRect
      (View.write (Elt F) (sW).view fs (ReadAs.same.apply (View.read (Elt F) (xW).view g)) Finset.univ) j = (g : S1.Idx → BitVec 32) i0 := by
  simp only [Memref.view_whole, View.write_whole_univ, View.readAt_apply, View.read_whole]
  exact congrArg (g : S1.Idx → BitVec 32) (S1_idx _)

omit [FloatOps F] in
/-- A row number below the table's height names a row: the one-row slice at it lies inside the table. -/
theorem chk_of_lt (w : BitVec 32) (hw : w.toNat < 100000) : k0_chk1 w := by
  intro a
  fin_cases a
  · show w.toNat + 1 ≤ 100000; omega
  · show 0 + 128 ≤ 128; omega

omit [FloatOps F] in
/-- What the second copy lands: the result array, overwritten whole with what the one-row slice at row `w` reads of the
    table, holds the table's row `x[0]` when `w` is that index. -/
theorem landed_eq (g : Buf (Elt F) (xLoc d)) (e : Buf (Elt F) (eLoc d)) (fo : Buf (Elt F) (oLoc d))
    (w : BitVec 32) (hw : k0_chk1 w) (hwg : w.toNat = ((g : S1.Idx → BitVec 32) i0).toNat) (hx : ((g : S1.Idx → BitVec 32) i0).toNat < 100000) :
    View.write (Elt F) (oW).view fo
      (ReadAs.same.apply (View.read (Elt F) ((eW).slice (Rect.unit (s := S100000x128) (k0_off1 w) S1x128.size (k0_off1_inb w hw)) (fun _ => rfl)).view e)) Finset.univ
    = (rowOf (g : S1.Idx → BitVec 32) (e : S100000x128.Idx → Elt F .f32) : S1x128.Idx → Elt F .f32) := by
  simp only [Memref.view_whole, View.write_whole_univ]
  funext j
  show (e : S100000x128.Idx → Elt F .f32) _ = (e : S100000x128.Idx → Elt F .f32) _
  refine congrArg (e : S100000x128.Idx → Elt F .f32) (funext fun a => Fin.ext ?_)
  have h0 : (j 0).val = 0 := by
    have h1 : (j 0).val < 1 := (j 0).isLt
    omega
  have hi : (i0 : S1.Idx) = ValueIdx.ix1 (0 : Fin 1) := by funext a; match a with | ⟨0, _⟩ => rfl
  match a with
  | ⟨0, _⟩ =>
    show w.toNat + 1 * (j 0).val = min ((g : S1.Idx → BitVec 32) (ValueIdx.ix1 (0 : Fin 1))).toNat 99999
    rw [← hi, h0, hwg]; omega
  | ⟨1, _⟩ =>
    show 0 + 1 * (j 1).val = (j 1).val
    omega

/-- The kernel on the sequencer. -/
theorem body₀ (hF : (K (F := F)).Facts) (h : 0 < grid0.bound 0) (O : CellTallies nD τ sig (HIx 1)) (W : Waits sig (HIx 1)) (hO : ∀ g, O g none = 0)
    (hx : ((m (xLoc d) : S1.Idx → BitVec 32) i0).toNat < 100000) :
    iprop(levAts (K (F := F)).L (K (F := F)).lev ∗ emp ∗ (xPts m d ∗ ePts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__gather_row (coordsS ⟨0, h⟩) xW (Memref.isWhole_whole _) eW (Memref.isWhole_whole _) oW (Memref.isWhole_whole _) sW (Memref.isWhole_whole _) cc0_scoped0 cc0_scoped1)
          fun _ => iprop((xPts m d ∗ ePts m d ∗ ∃ f, oPts d f ∗ ⌜f = (rowOf (m (xLoc d) : S1.Idx → BitVec 32) (m (eLoc d) : S100000x128.Idx → Elt F .f32) : S1x128.Idx → Elt F .f32)⌝)
            ∗ scopedBufs (S0 d h) ∗ scopedSems0 (S0 d h) ∗ ∃ W', ⌜∀ p ∈ W', p ∈ W ∨ p.2 = none⌝ ∗ owes (S0 d h) O W') := by
  simp only [cc0__gather_row_eq_skeleton]; unfold cc0__gather_row_skel
  iintro ⟨#Hlv, -, ⟨Hx, He, %fo, Ho⟩, Hsb, Hss, HO⟩
  ihave Hsb' := ((K (F := F)).scopedBufs_S_elim hF d (((⟨0, h⟩ : Fin (grid0.bound 0))).castLE hcore0)) $$ Hsb
  icases Hsb' with ⟨Hownb, Hsubb⟩
  ihave Hownb' := (Entails.of_eq (ownBufs_S (F := F) d (((⟨0, h⟩ : Fin (grid0.bound 0))).castLE hcore0))) $$ Hownb
  icases Hownb' with ⟨⟨%fs, Hs⟩, Hrestb⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hmw := ((K (F := F)).mayWaits_none (thr := S0 d h) hO) $$ Hlv
  ihave Hx' := (Entails.of_eq (pts_x (F := F) d (((⟨0, h⟩ : Fin (grid0.bound 0))).castLE hcore0) _).symm) $$ Hx
  ihave He' := (Entails.of_eq (pts_e (F := F) d (((⟨0, h⟩ : Fin (grid0.bound 0))).castLE hcore0) _).symm) $$ He
  ihave Ho' := (Entails.of_eq (pts_o (F := F) d (((⟨0, h⟩ : Fin (grid0.bound 0))).castLE hcore0) _).symm) $$ Ho
  ihave Hs' := (Entails.of_eq (pts_s (F := F) d (((⟨0, h⟩ : Fin (grid0.bound 0))).castLE hcore0) _).symm) $$ Hs
  sl_exec (disch := first | (sl_unfold_run_names; exact chk_of_lt _ (by rw [word_eq]; exact hx)) | exact chk_of_lt _ (lt_of_eq_of_lt (congrArg BitVec.toNat (word_eq d _ (m (xLoc d)) fs _)) hx))
  sl_unfold_run_names
  sl_step
  isplitl [Hx' He' Ho']
  · isplitl [Hx']; · iapply (Entails.of_eq (pts_x (F := F) d _ _)); iexact Hx'
    isplitl [He']; · iapply (Entails.of_eq (pts_e (F := F) d _ _)); iexact He'
    iexists _
    isplitl [Ho']
    · iapply (Entails.of_eq (pts_o (F := F) d _ _)); iexact Ho'
    · ipureintro
      exact landed_eq d (m (xLoc d)) (m (eLoc d)) fo _ (chk_of_lt _ (lt_of_eq_of_lt (congrArg BitVec.toNat (word_eq d _ (m (xLoc d)) fs _)) hx))
        (congrArg BitVec.toNat (word_eq d _ (m (xLoc d)) fs _)) hx
  isplitl [Hs' Hrestb Hsubb]
  · iapply ((K (F := F)).scopedBufs_S_intro hF d _)
    isplitl [Hs' Hrestb]
    · rw [ownBufs_S]
      isplitl [Hs']
      · iexists _; iapply (Entails.of_eq (pts_s (F := F) d _ _)); iexact Hs'
      · iexact Hrestb
    · iexact Hsubb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (by rw [hp]; rfl)
    rcases Finset.mem_insert.mp hp with hp | hp
    · exact .inr (by rw [hp]; rfl)
    · exact .inl hp
  · iexact HO

end Body

/-! ## The launch: what the call hands the sequencer and takes back -/

/-- The call hands the one SparseCore's sequencer the two arguments and the result array whole, and takes them back with
    the result array at the table's row. -/
def P : (K (F := F)).Pay (nD := nD) (Val := Elt F) (Name := ℕ) (U := UU) where
  st := fun _ d _ => iprop(xPts m d ∗ ePts m d ∗ ∃ f, oPts d f)
  dn := fun _ d _ => iprop(xPts m d ∗ ePts m d ∗ ∃ f, oPts d f ∗ ⌜f = (rowOf (m (xLoc d) : S1.Idx → BitVec 32) (m (eLoc d) : S100000x128.Idx → Elt F .f32) : S1x128.Idx → Elt F .f32)⌝)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem defs₀_scalar (c : Fin τ.nSC) :
    defs₀ (F := F) (.scScalar c) 0 ()
      = SparseCore.onCore hcore0 (fun c => cc0__gather_row (coordsS c) xW (Memref.isWhole_whole _) eW (Memref.isWhole_whole _) oW (Memref.isWhole_whole _) sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's obligation at the one call. -/
theorem scalarObl (hx : ∀ d, ((m (xLoc d) : S1.Idx → BitVec 32) i0).toNat < 100000) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body₀ m d facts h O W hO (hx d)).trans (wp_mono frame _ _ fun _ => obl_post)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call, then the reshape -/

abbrev x' : DevRef τ sig := Proc.devRef .tc (main_arg0 : Ref sig .tc)
abbrev e' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev opR : HloOp τ sig (Elt F) := StableHlo.reshape main_v0 main_v1 rfl shapeCasts_S1x128_S64x2

abbrev S4 : Finset (DevRef τ sig) := {x', e', o', r'}

omit [FloatOps F] in
theorem held_S4 (d : Dev nD) (W : Valuation τ sig (Elt F)) :
    (held (T d) S4 W : sProp 𝕄) = iprop((xLoc d ↦{fullShare} W x') ∗ (eLoc d ↦{fullShare} W e') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)
def V1 (d : Dev nD) (f : Buf (Elt F) (oLoc d)) : Valuation τ sig (Elt F) := Function.update (V0 m d) o' f

theorem unscoped_held (d : Dev nD) : (unscopedBufs d (fun b => m ((SparseCore.T d).loc b)) : sProp 𝕄) = held (T d) S4 (V0 m d) := by
  rw [unscopedBufs_eq, held_S4]; rfl

theorem V1_x (d : Dev nD) (f : Buf (Elt F) (oLoc d)) : V1 m d f x' = m (xLoc d) := Function.update_of_ne (show x' ≠ o' by decide) _ _
theorem V1_e (d : Dev nD) (f : Buf (Elt F) (oLoc d)) : V1 m d f e' = m (eLoc d) := Function.update_of_ne (show e' ≠ o' by decide) _ _
theorem V1_o (d : Dev nD) (f : Buf (Elt F) (oLoc d)) : V1 m d f o' = f := Function.update_self _ _ _
theorem V1_r (d : Dev nD) (f : Buf (Elt F) (oLoc d)) : V1 m d f r' = V0 m d r' := Function.update_of_ne (show r' ≠ o' by decide) _ _

/-- The result array after the reshape: the row laid out as 64 x 2. -/
def resOf (d : Dev nD) : Buf (Elt F) (rLoc d) :=
  (shapeCast S64x2 (rowOf (m (xLoc d) : S1.Idx → BitVec 32) (m (eLoc d) : S100000x128.Idx → Elt F .f32) : S1x128.Idx → Elt F .f32) shapeCasts_S1x128_S64x2 : S64x2.Idx → Elt F .f32)

theorem held_after (d : Dev nD) (f : Buf (Elt F) (oLoc d))
    (hf : f = (rowOf (m (xLoc d) : S1.Idx → BitVec 32) (m (eLoc d) : S100000x128.Idx → Elt F .f32) : S1x128.Idx → Elt F .f32)) :
    (held (T d) S4 ((opR (F := F)).result (V1 m d f)) : sProp 𝕄)
      = iprop(xPts m d ∗ ePts m d ∗ oPts d f ∗ rLoc d ↦{fullShare} resOf m d) := by
  rw [held_S4,
    (opR (F := F)).result_of_not_mem (V1 m d f) (b := x') (show x' ∉ ({r'} : Finset (DevRef τ sig)) by decide),
    (opR (F := F)).result_of_not_mem (V1 m d f) (b := e') (show e' ∉ ({r'} : Finset (DevRef τ sig)) by decide),
    (opR (F := F)).result_of_not_mem (V1 m d f) (b := o') (show o' ∉ ({r'} : Finset (DevRef τ sig)) by decide),
    V1_x, V1_e, V1_o]
  have hr : (opR (F := F)).result (V1 m d f) r' = resOf m d := by
    rw [show (opR (F := F)).result (V1 m d f) r' = _ from StableHlo.reshape_result (τ := τ) (Val := Elt F) main_v0 main_v1 rfl shapeCasts_S1x128_S64x2 ⟨by decide, rfl⟩ ⟨by decide, rfl⟩ (V1 m d f)]
    show (fun i => shapeCast S64x2 (V1 m d f o') shapeCasts_S1x128_S64x2 i) = resOf m d
    rw [V1_o, hf]; rfl
  rw [hr]

theorem st0_eq (d : Dev nD) : (bigSep Finset.univ fun c : Fin ((K (F := F)).nCore 0) => (P m).st 0 d c) = iprop(xPts m d ∗ ePts m d ∗ ∃ f, oPts d f) := by
  show (bigSep (Finset.univ : Finset (Fin 1)) fun _ => iprop(xPts m d ∗ ePts m d ∗ ∃ f, oPts d f)) = _
  rw [show (Finset.univ : Finset (Fin 1)) = {0} by decide, bigSep_singleton]
theorem dn0_eq (d : Dev nD) : (bigSep Finset.univ fun c : Fin ((K (F := F)).nCore 0) => (P m).dn 0 d c)
    = iprop(xPts m d ∗ ePts m d ∗ ∃ f, oPts d f ∗ ⌜f = (rowOf (m (xLoc d) : S1.Idx → BitVec 32) (m (eLoc d) : S100000x128.Idx → Elt F .f32) : S1x128.Idx → Elt F .f32)⌝) := by
  show (bigSep (Finset.univ : Finset (Fin 1)) fun _ => iprop(xPts m d ∗ ePts m d ∗ ∃ f, oPts d f ∗ ⌜f = (rowOf (m (xLoc d) : S1.Idx → BitVec 32) (m (eLoc d) : S100000x128.Idx → Elt F .f32) : S1x128.Idx → Elt F .f32)⌝)) = _
  rw [show (Finset.univ : Finset (Fin 1)) = {0} by decide, bigSep_singleton]

theorem hR : (opR (F := F)).bufs ⊆ S4 := show ({o', r'} : Finset (DevRef τ sig)) ⊆ S4 by decide

/-- What @main leaves the claim: the arguments at their launch contents, the result at the row laid out as 64 x 2. -/
abbrev FIN (d : Dev nD) : sProp 𝕄 := iprop(xPts m d ∗ ePts m d ∗ rLoc d ↦{fullShare} resOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S4 (F := F) d _)) $$ Hheld
  icases Hh with ⟨Hx, He, Ho, Hr⟩
  iapply ((K (F := F)).wp_run (D (F := F)) 𝒱 (EH := EH) (P := P m) κ d 0) $$ [Hst Hx He Ho Hb Hr]
  isplitr; · iexact Hctx
  isplitl [Hst]; · iexact Hst
  isplitl [Hx He Ho]
  · rw [st0_eq]
    isplitl [Hx]; · iexact Hx
    isplitl [He]; · iexact He
    iexists _; iexact Ho
  iintro ⟨Hst, Hdn⟩
  ihave Hdn' := (Entails.of_eq (dn0_eq m d)) $$ Hdn
  icases Hdn' with ⟨Hx, He, %f, Ho, %hf⟩
  iapply (wp_hlo_within 𝒱 (SparseCore.T d) none Set.univ (op := opR) (S := S4) hR (V := V1 m d f)) $$ [Hb Hx He Ho Hr]
  · isplitl [Hb]; · iexact Hb
    rw [held_S4, V1_x, V1_e, V1_o, V1_r]
    isplitl [Hx]; · iexact Hx
    isplitl [He]; · iexact He
    isplitl [Ho]; · iexact Ho
    iexact Hr
  iintro ⟨Hb, Hheld⟩
  ihave Hh := (Entails.of_eq (held_after (F := F) m d f hf)) $$ Hheld
  icases Hh with ⟨Hx, He, -, Hr⟩
  rw [wp_ret]; imodintro; imodintro
  isplitl [Hst]; · iexact Hst
  isplitl [Hx]; · iexact Hx
  isplitl [He]; · iexact He
  iexact Hr

def fq (d : Dev nD) (s' : Phys nD τ sig (Elt F)) : Prop :=
  s'.mem.mem (rLoc d) = resOf m d ∧ s'.mem.mem (xLoc d) = m (xLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hx, He, Hr⟩, HSI⟩
  ihave %hx := (SI_pointsTo_agree (st := s') (ℓ := xLoc d) (I := Finset.univ) (q := fullShare) (f := m (xLoc d))) $$ [HSI Hx]
  · isplitl [HSI] <;> iassumption
  ihave %he := (SI_pointsTo_agree (st := s') (ℓ := eLoc d) (I := Finset.univ) (q := fullShare) (f := m (eLoc d))) $$ [HSI He]
  · isplitl [HSI] <;> iassumption
  ihave %hr := (SI_pointsTo_agree (st := s') (ℓ := rLoc d) (I := Finset.univ) (q := fullShare) (f := resOf m d)) $$ [HSI Hr]
  · isplitl [HSI] <;> iassumption
  ipureintro
  exact ⟨funext fun i => hr i (Finset.mem_univ i), funext fun i => hx i (Finset.mem_univ i), funext fun i => he i (Finset.mem_univ i)⟩

/-! ## The program's run -/

def QC : PUnit × MemSt nD τ sig (Elt F) → Prop := fun r => ∀ c : Dev nD,
  r.2.mem (rLoc c) = resOf m c ∧ r.2.mem (xLoc c) = m (xLoc c) ∧ r.2.mem (eLoc c) = m (eLoc c)

/-- Under "the index names a row", every weakly fair execution of the device's threads terminates with the result at the
    row laid out as 64 x 2 and the arguments unchanged. -/
theorem run_main [∀ e, Nonempty (Elt F e)] (hx : ∀ d, ((m (xLoc d) : S1.Idx → BitVec 32) i0).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m hx)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.KernelIdeal.RowCopy

end
-- ==== Proof.RefRun.lean ====
/-
  The reference program's run: @main is a straight line of twenty-three host operations once the lookup helper and the
  select helper it calls are written out at their call sites, so every weakly fair execution ends with each buffer at
  the fold of those operations over the launch contents.
-/
import proofs.«204644_g18691697672199_cont_8to1_119_7_alg».proof.ReferenceIdeal
import proofs.«204644_g18691697672199_cont_8to1_119_7_alg».proof.Proof.Gen.ReferenceIdeal
import Idealize.ShloMosaic.Lib.StableHlo.Run

noncomputable section

namespace Cert.ReferenceIdeal.Lookup

open Cert.ReferenceIdeal Cert.ReferenceIdeal.Gen Idealize.ShloMosaic Idealize.ShloMosaic.TcCoe Idealize.SL.Sem Idealize.ShloMosaic.StableHlo

variable {F : FTy → Type} [FloatOps F]

/-- The lookup's operations in order: the index wrapped if negative (compare with 0, add the height, select), reshaped to
    a 1x1 start index, tested to lie in [0, 99999], the row gathered, the row or a filler selected by that test; then the
    reshape of the row to 64x2. -/
abbrev ops : List (HloOp τ sig (Elt F)) :=
  [ TRef.nullary main_call0.c (constantI S_ 32 0#32),
    TRef.unary main_call0.c main_call0.v0 (broadcastInDim S1 ![] bcast_S_S1),
    TRef.binary (.of main_arg0) main_call0.v0 main_call0.v1 (cmpi .slt),
    TRef.nullary main_call0.c_0 (constantI S_ 32 100000#32),
    TRef.unary main_call0.c_0 main_call0.v2 (broadcastInDim S1 ![] bcast_S_S1),
    TRef.binary (.of main_arg0) main_call0.v2 main_call0.v3 addi,
    TRef.ternary main_call0.v1 main_call0.v3 (.of main_arg0) main_call0.call0.v0 select,
    TRef.unary main_call0.call0.v0 main_call0.v5 (broadcastInDim S1x1 ![0] bcast_S1_S1x1_0),
    TRef.nullary main_call0.c_1 (constantI S1 32 99999#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_arg1) main_call0.v5 main_call0.v12 (fun x i => Host.gather gather_S100000x128_S1x1_S1x128_1_0_n_n_0_1_1128 x i),
    TRef.unary main_call0.v11 main_call0.v13 (broadcastInDim S1x128 ![0] bcast_S1_S1x128_0),
    TRef.nullary main_call0.cst (constant S_ .f32 0x7FC00000#32),
    TRef.unary main_call0.cst main_call0.v14 (broadcastInDim S1x128 ![] bcast_S_S1x128),
    TRef.ternary main_call0.v13 main_call0.v12 main_call0.v14 main_call0.v15 select,
    reshape main_v0 main_v1 rfl shapeCasts_S1x128_S64x2 ]

set_option maxRecDepth 1024 in
/-- @main is that straight line: the two helpers' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub ..⟩

/-- Every weakly fair execution of @main terminates with every TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Lookup

end
-- ==== Proof.RefValue.lean ====
/-
  The reference's result as a function of the arguments, and that function read under "the index lies in [0, 99999]":
  the index is not negative, so it is not wrapped; the wrapped index passes the range test, so the row gathered is kept
  and the filler never chosen; the gather clamps a start index into [0, 99999], which leaves such an index alone. What
  is left is the table's row at the index, laid out as 64 x 2.
-/
import proofs.«204644_g18691697672199_cont_8to1_119_7_alg».proof.Proof.RefRun
import proofs.«204644_g18691697672199_cont_8to1_119_7_alg».proof.Proof.Spec
import Idealize.ShloMosaic.Lib.ValueIdx
import Idealize.ShloMosaic.Lib.Affine
import Idealize.ShloMosaic.PureOps.Reduce

noncomputable section

namespace Cert.ReferenceIdeal.Lookup

open Cert.ReferenceIdeal Cert.ReferenceIdeal.Gen Idealize.ShloMosaic Idealize.ShloMosaic.TcCoe Idealize.SL.Sem Idealize.ShloMosaic.StableHlo
open Idealize.ShloMosaic.ValueIdx Cert.RowSpec

variable {F : FTy → Type} [FloatOps F]

/-- The index wrapped: `x + 100000` where `x` is negative, else `x`. -/
def wrapped (x : IVec S1 32) : IVec S1 32 :=
  select (cmpi .slt x (broadcastInDim S1 ![] bcast_S_S1 (constantI S_ 32 0#32)))
    (addi x (broadcastInDim S1 ![] bcast_S_S1 (constantI S_ 32 100000#32))) x

/-- The gather's start indices: the wrapped index as a 1 x 1 array. -/
def start (x : IVec S1 32) : IVec S1x1 32 := broadcastInDim S1x1 ![0] bcast_S1_S1x1_0 (wrapped x)

/-- The range test: every start index lies in [0, 99999]. -/
def inRange (x : IVec S1 32) : IVec S1 1 :=
  Host.reduce IntOp.andi
    (andi (cmpi .sge (start x) (broadcastInDim S1x1 ![] bcast_S_S1x1 (constantI S_ 32 0#32)))
      (cmpi .sle (start x) (broadcastInDim S1x1 ![1] bcast_S1_S1x1_1 (constantI S1 32 99999#32))))
    (constantI S_ 1 1#1) reducesTo_S1x1_S1_d1 h_S_

/-- The row looked up: the gathered row where the range test passes, the filler elsewhere. -/
def looked (x : IVec S1 32) (e : FVec F S100000x128 .f32) : FVec F S1x128 .f32 :=
  select (broadcastInDim S1x128 ![0] bcast_S1_S1x128_0 (inRange x))
    (Host.gather gather_S100000x128_S1x1_S1x128_1_0_n_n_0_1_1128 e (start x))
    (broadcastInDim S1x128 ![] bcast_S_S1x128 (constant S_ .f32 0x7FC00000#32))

/-- The reference's result: the row looked up, laid out as 64 x 2. -/
def out (x : IVec S1 32) (e : FVec F S100000x128 .f32) : FVec F S64x2 .f32 :=
  shapeCast S64x2 (looked x e) shapeCasts_S1x128_S64x2

attribute [local irreducible] Host.reduce Host.gather in
set_option maxRecDepth 8192 in
set_option maxHeartbeats 2000000 in
/-- The fold of the operations at the result buffer is that function of the two arguments. -/
theorem out_eq (V : Valuation τ sig (Elt F)) :
    after ops V (main_v1 : DevRef τ sig) = out (V (main_arg0 : DevRef τ sig)) (V (main_arg1 : DevRef τ sig)) := by
  unfold out looked inRange start wrapped
  simp only [after_cons, after_nil]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

/-! ## The stages read under the index range -/

/-- An `and`-fold over ones, from one, is one. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_one f hf l

variable (x : IVec S1 32)
  (hx : ∀ i, IntOp.cmpi .sge (x i) 0#32 = 1#1 ∧ IntOp.cmpi .sle (x i) 99999#32 = 1#1)

include hx in
/-- A nonnegative index is not wrapped. -/
theorem wrapped_eq (i : S1.Idx) : wrapped x i = x i := by
  have hn : IntOp.cmpi .slt (x i) 0#32 = 0#1 := eq_zero_of_ne_one fun h =>
    absurd (IntOp.cmpi_sge.1 (hx i).1) (not_le.2 (IntOp.cmpi_slt.1 h))
  show Scalar.select (IntOp.cmpi .slt (x i) 0#32) _ (x i) = x i
  rw [hn, select_zero]

include hx in
/-- Every start index is an entry of the index array. -/
theorem start_eq (k : S1x1.Idx) : ∃ i, start x k = x i := ⟨_, wrapped_eq x hx _⟩

include hx in
/-- The range test passes. -/
theorem inRange_eq (i : S1.Idx) : inRange x i = 1#1 := by
  unfold inRange
  rw [Host.reduce_eq_foldl]
  refine foldl_andi_one _ (fun k => ?_) _
  obtain ⟨i', hi'⟩ := start_eq x hx k
  show IntOp.andi (IntOp.cmpi .sge (start x k) 0#32) (IntOp.cmpi .sle (start x k) 99999#32) = 1#1
  rw [hi']
  exact IntOp.andi_eq_one.2 (hx i')

/-- THE GATHER READ AT (0, c): the table at the start index, read signed and clamped into [0, 99999], and column c. -/
theorem gather_row {α : Type} (e : S100000x128.Idx → α) (st : IVec S1x1 32) (j : S1x128.Idx) :
    Host.gather gather_S100000x128_S1x1_S1x128_1_0_n_n_0_1_1128 e st j
      = e (ix2 (⟨min (st (ix2 (0 : Fin 1) (0 : Fin 1))).toInt.toNat 99999, by omega⟩ : Fin 100000) (⟨(j 1).val, idx2_lt1 j⟩ : Fin 128)) := by
  unfold Host.gather
  refine congrArg e (funext fun a => Fin.ext ?_)
  have hsub : ∀ k : S1x1.Idx, k = ix2 (0 : Fin 1) (0 : Fin 1) := fun k => by
    funext b
    match b with
    | ⟨0, _⟩ => exact Subsingleton.elim (α := Fin 1) _ _
    | ⟨1, _⟩ => exact Subsingleton.elim (α := Fin 1) _ _
  match a with
  | ⟨0, _⟩ =>
    show gather_S100000x128_S1x1_S1x128_1_0_n_n_0_1_1128.start j st 0 + gather_S100000x128_S1x1_S1x128_1_0_n_n_0_1_1128.batchCoord j 0
      + gather_S100000x128_S1x1_S1x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1x1_S1x128_1_0_n_n_0_1_1128.startIndexMap from List.mem_singleton.mpr rfl)]
    rw [hsub (gather_S100000x128_S1x1_S1x128_1_0_n_n_0_1_1128.siIdx j _)]
    rfl
  | ⟨1, _⟩ =>
    show gather_S100000x128_S1x1_S1x128_1_0_n_n_0_1_1128.start j st 1 + gather_S100000x128_S1x1_S1x128_1_0_n_n_0_1_1128.batchCoord j 1
      + gather_S100000x128_S1x1_S1x128_1_0_n_n_0_1_1128.offCoord j 1 = (j 1).val
    rw [GatherDims.batchCoord_eq_zero _ _ _ List.not_mem_nil]
    unfold GatherDims.start
    rw [dif_neg (show (1 : Fin 2) ∉ gather_S100000x128_S1x1_S1x128_1_0_n_n_0_1_1128.startIndexMap from by decide)]
    unfold GatherDims.offCoord
    rw [dif_pos (show (1 : Fin 2) ∈ gather_S100000x128_S1x1_S1x128_1_0_n_n_0_1_1128.sKept from by decide)]
    simp only [Nat.zero_add, Nat.add_zero]
    rfl

include hx in
/-- Under the index range the row looked up is the table's row at the index. -/
theorem looked_eq (hr : ∀ i, (x i).toNat < 100000 ∧ (x i).toInt.toNat = (x i).toNat) (e : FVec F S100000x128 .f32) :
    looked x e = rowOf x e := by
  funext j
  show Scalar.select (inRange x _) (Host.gather gather_S100000x128_S1x1_S1x128_1_0_n_n_0_1_1128 e (start x) j) _ = _
  rw [inRange_eq x hx, select_one, gather_row]
  unfold rowOf
  obtain ⟨i', hi'⟩ := start_eq x hx (ix2 (0 : Fin 1) (0 : Fin 1))
  have hi1 : i' = ix1 (0 : Fin 1) := by
    funext b
    match b with
    | ⟨0, _⟩ => exact Subsingleton.elim (α := Fin 1) _ _
  refine congrArg e (congrArg (fun n => ix2 n (⟨(j 1).val, idx2_lt1 j⟩ : Fin 128)) (Fin.ext ?_))
  show min (start x (ix2 (0 : Fin 1) (0 : Fin 1))).toInt.toNat 99999 = min (x (ix1 (0 : Fin 1))).toNat 99999
  rw [hi', hi1, (hr _).2]

include hx in
/-- Under the index range the reference's result is the table's row at the index, laid out as 64 x 2. -/
theorem out_row (hr : ∀ i, (x i).toNat < 100000 ∧ (x i).toInt.toNat = (x i).toNat) (e : FVec F S100000x128 .f32) :
    out x e = shapeCast S64x2 (rowOf x e) shapeCasts_S1x128_S64x2 := by
  unfold out
  rw [looked_eq x hx hr e]

end Cert.ReferenceIdeal.Lookup

end
-- ==== Proof.lean ====
/-
  The certificate's five claims, assembled.

  Both programs return row `x[0]` of the 100000 x 128 table, laid out as 64 x 2. The kernel copies the index array into
  the sequencer's scalar memory, reads the one word back, copies the table's row at that word onto the result and lets
  the host reshape it; the reference wraps a negative index, gathers the row at the (clamped) index, replaces it by a
  filler if the index is out of range, and reshapes. Under the precondition the index lies in [0, 99999]: the kernel's
  one-row slice is a row of the table (so its sequencer never stalls), and on the reference's side the wrap, the clamp
  and the filler are all inactive. No arithmetic is done on the table's entries, so nothing depends on their finiteness.
-/
import proofs.«204644_g18691697672199_cont_8to1_119_7_alg».proof.Defs
import proofs.«204644_g18691697672199_cont_8to1_119_7_alg».proof.Proof.Gen.Kernel
import proofs.«204644_g18691697672199_cont_8to1_119_7_alg».proof.Proof.Gen.KernelIdeal
import proofs.«204644_g18691697672199_cont_8to1_119_7_alg».proof.Proof.Gen.ReferenceIdeal
import proofs.«204644_g18691697672199_cont_8to1_119_7_alg».proof.Proof.Gen.Pre_input_domain
import proofs.«204644_g18691697672199_cont_8to1_119_7_alg».proof.Proof.Domain
import proofs.«204644_g18691697672199_cont_8to1_119_7_alg».proof.Proof.KernelRun
import proofs.«204644_g18691697672199_cont_8to1_119_7_alg».proof.Proof.KernelIdealRun
import proofs.«204644_g18691697672199_cont_8to1_119_7_alg».proof.Proof.RefRun
import proofs.«204644_g18691697672199_cont_8to1_119_7_alg».proof.Proof.RefValue
import Idealize.ShloMosaic.Adequacy
import Idealize.ShloMosaic.Init

noncomputable section

namespace Cert.Proof

open Idealize.ShloMosaic Idealize.SL.Sem

/-- Under the precondition the kernel program's index names a row of the table (at the word-level instance), -/
theorem row_Kernel (m : (ℓ : Loc Cert.Kernel.nD Cert.Kernel.τ Cert.Kernel.sig) → Buf (Elt Bits) ℓ) (h : Cert.Pre_Kernel m) (d : Dev Cert.Kernel.nD) :
    ((m (Cert.Kernel.RowCopy.xLoc d) : Cert.Kernel.S1.Idx → BitVec 32) Cert.Kernel.RowCopy.i0).toNat < 100000 :=
  (Cert.Pre_input_domain.Range.index_range (F := Bits) _ _ (h d) _).1

/-- and so does the idealized kernel program's (at the ideal instance). -/
theorem row_KernelIdeal (m : (ℓ : Loc Cert.KernelIdeal.nD Cert.KernelIdeal.τ Cert.KernelIdeal.sig) → Buf (Elt Ideal) ℓ) (h : Cert.Pre_KernelIdeal m) (d : Dev Cert.KernelIdeal.nD) :
    ((m (Cert.KernelIdeal.RowCopy.xLoc d) : Cert.KernelIdeal.S1.Idx → BitVec 32) Cert.KernelIdeal.RowCopy.i0).toNat < 100000 :=
  (Cert.Pre_input_domain.Range.index_range (F := Ideal) _ _ (h d) _).1

theorem frame_Kernel : Cert.frame_Kernel := fun m ρ hpre =>
  (θ_run Cert.Kernel.defs _ _).mono (fun _ h c => ⟨(h c).2.1, (h c).2.2⟩) (Cert.Kernel.RowCopy.run_main (F := Bits) m ρ (row_Kernel m hpre))

theorem frame_KernelIdeal : Cert.frame_KernelIdeal := fun m ρ hpre =>
  (θ_run Cert.KernelIdeal.defs _ _).mono (fun _ h c => ⟨(h c).2.1, (h c).2.2⟩) (Cert.KernelIdeal.RowCopy.run_main (F := Ideal) m ρ (row_KernelIdeal m hpre))

theorem frame_ReferenceIdeal : Cert.frame_ReferenceIdeal := fun m ρ _ =>
  (θ_run Cert.ReferenceIdeal.defs _ _).mono
    (fun _ h c => ⟨(h c Cert.ReferenceIdeal.main_arg0).trans (Cert.ReferenceIdeal.Lookup.arg0_eq _),
      (h c Cert.ReferenceIdeal.main_arg1).trans (Cert.ReferenceIdeal.Lookup.arg1_eq _)⟩)
    (Cert.ReferenceIdeal.Lookup.run_main (F := Ideal) m ρ)

theorem preserves : Cert.preserves_Kernel_KernelIdeal := trivial

/-- At the ideal instance both programs end with the result at the table's row `x[0]` laid out as 64 x 2: the kernel by
    its run, the reference by its run and the reading of its term under the index range. -/
theorem algebraic : Cert.algebraic_KernelIdeal_ReferenceIdeal := by
  intro m ρ m' ρ' hpre hagree
  refine ⟨fun c => Cert.KernelIdeal.RowCopy.resOf m c, ?_, ?_⟩
  · exact (θ_run Cert.KernelIdeal.defs _ _).mono (fun _ h c => h c) (Cert.KernelIdeal.RowCopy.run_main (F := Ideal) m ρ (row_KernelIdeal m hpre))
  · refine (θ_run Cert.ReferenceIdeal.defs _ _).mono (fun r h c => ⟨?_, ?_, ?_⟩) (Cert.ReferenceIdeal.Lookup.run_main (F := Ideal) m' ρ')
    · refine (h c Cert.ReferenceIdeal.main_v1).trans ((Cert.ReferenceIdeal.Lookup.out_eq _).trans ?_)
      show Cert.ReferenceIdeal.Lookup.out (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
      rw [(hagree c).1, (hagree c).2]
      exact Cert.ReferenceIdeal.Lookup.out_row _
        (fun i => Cert.Pre_input_domain.Range.index_bits (F := Ideal) _ _ (hpre c) i)
        (fun i => Cert.Pre_input_domain.Range.index_range (F := Ideal) _ _ (hpre c) i) _
    · exact (h c Cert.ReferenceIdeal.main_arg0).trans (Cert.ReferenceIdeal.Lookup.arg0_eq _)
    · exact (h c Cert.ReferenceIdeal.main_arg1).trans (Cert.ReferenceIdeal.Lookup.arg1_eq _)

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
